-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S2x128x128 .f32) (main_arg5 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S10000x128 : Shape := ⟨2, ![10000, 128]⟩
abbrev S1x128x128 : Shape := ⟨3, ![1, 128, 128]⟩
abbrev S850000x128 : Shape := ⟨2, ![850000, 128]⟩

abbrev nBuf : Space → Nat
  | .hbm => 127
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S2x128x128, .f32⟩
  | .hbm, ⟨5, _⟩ => ⟨S2x128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S50000, .f32⟩
  | .hbm, ⟨27, _⟩ => ⟨S1x128, .f32⟩
  | .hbm, ⟨28, _⟩ => ⟨S50000x128, .f32⟩
  | .hbm, ⟨29, _⟩ => ⟨S1x128x128, .f32⟩
  | .hbm, ⟨30, _⟩ => ⟨S128x128, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S50000x128, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S850000, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x128, .f32⟩
  | .hbm, ⟨109, _⟩ => ⟨S850000x1, .f32⟩
  | .hbm, ⟨110, _⟩ => ⟨S850000x128, .f32⟩
  | .hbm, ⟨111, _⟩ => ⟨S850000x128, .f32⟩
  | .hbm, ⟨112, _⟩ => ⟨S_, .f32⟩
  | .hbm, ⟨113, _⟩ => ⟨S50000x128, .f32⟩
  | .hbm, ⟨114, _⟩ => ⟨S_, .i32⟩
  | .hbm, ⟨115, _⟩ => ⟨S850000, .i32⟩
  | .hbm, ⟨116, _⟩ => ⟨S850000, .i1⟩
  | .hbm, ⟨117, _⟩ => ⟨S_, .i32⟩
  | .hbm, ⟨118, _⟩ => ⟨S850000, .i32⟩
  | .hbm, ⟨119, _⟩ => ⟨S850000, .i32⟩
  | .hbm, ⟨120, _⟩ => ⟨S850000, .i32⟩
  | .hbm, ⟨121, _⟩ => ⟨S850000x1, .i32⟩
  | .hbm, ⟨122, _⟩ => ⟨S50000x128, .f32⟩
  | .hbm, ⟨123, _⟩ => ⟨S1x128, .f32⟩
  | .hbm, ⟨124, _⟩ => ⟨S128, .f32⟩
  | .hbm, ⟨125, _⟩ => ⟨S1x128, .f32⟩
  | .hbm, ⟨126, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_15 : Ref sig .tc := ⟨.hbm, 100, rfl⟩
abbrev main_v77 : Ref sig .tc := ⟨.hbm, 101, rfl⟩
abbrev main_v78 : Ref sig .tc := ⟨.hbm, 102, rfl⟩
abbrev main_c_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_c_18 : Ref sig .tc := ⟨.hbm, 114, rfl⟩
abbrev main_v88 : Ref sig .tc := ⟨.hbm, 115, rfl⟩
abbrev main_v89 : Ref sig .tc := ⟨.hbm, 116, rfl⟩
abbrev main_c_19 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x128x128_S1x128x128_0_0_0 : S2x128x128.Slices ![0, 0, 0] S1x128x128
  shapeCasts_S1x128x128_S128x128 : S1x128x128.ShapeCasts S128x128
  shapeCasts_S10000x128_S10000x128 : S10000x128.ShapeCasts S10000x128
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  scatter_S50000_S850000x1_S850000_n_0_0_1_wf : ScatterDims.WF S50000 S850000x1 S850000 [] [0] [0] 1
  dot_S10000x128_S128x128_S10000x128_1_0_0_1_n_n_wf : DotDims.WF S10000x128 S128x128 S10000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x128x128 : Shape := ⟨3, ![1, 128, 128]⟩
abbrev S850000x128 : Shape := ⟨2, ![850000, 128]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S2x128x128, .f32⟩
  | 5 => ⟨S2x128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S50000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S_, .f32⟩
  | 24 => ⟨S850000, .f32⟩
  | 25 => ⟨S50000, .f32⟩
  | 26 => ⟨S50000, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x128x128, .f32⟩
  | 35 => ⟨S128x128, .f32⟩
  | 36 => ⟨S1x128, .f32⟩
  | 37 => ⟨S128, .f32⟩
  | 38 => ⟨S50000x128, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128x128, .f32⟩
  | 88 => ⟨S128x128, .f32⟩
  | 89 => ⟨S1x128, .f32⟩
  | 90 => ⟨S128, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_11 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_13 : Ref sig .tc := ⟨.hbm, 101, rfl⟩
abbrev main_v76 : Ref sig .tc := ⟨.hbm, 102, rfl⟩
abbrev main_v77 : Ref sig .tc := ⟨.hbm, 103, rfl⟩
abbrev main_c_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_15 : Ref sig .tc := ⟨.hbm, 111, rfl⟩
abbrev main_v84 : Ref sig .tc := ⟨.hbm, 112, rfl⟩
abbrev main_v85 : Ref sig .tc := ⟨.hbm, 113, rfl⟩
abbrev main_c_16 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_17 : Ref sig .tc := ⟨.hbm, 123, rfl⟩
abbrev main_v94 : Ref sig .tc := ⟨.hbm, 124, rfl⟩
abbrev main_c_18 : Ref sig .tc := ⟨.hbm, 125, rfl⟩
abbrev main_v95 : Ref sig .tc := ⟨.hbm, 126, rfl⟩
abbrev main_v96 : Ref sig .tc := ⟨.hbm, 127, rfl⟩
abbrev main_c_19 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_call2_cst : Ref sig .tc := ⟨.hbm, 137, rfl⟩
abbrev main_call2_v0 : Ref sig .tc := ⟨.hbm, 138, rfl⟩
abbrev main_v105 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S850000x1_S850000x128_0_1 : S850000x1.BroadcastsInDim S850000x128 (![0, 1] : Fin 2 → Fin S850000x128.rank)
  slices_S2x128x128_S1x128x128_1_0_0 : S2x128x128.Slices ![1, 0, 0] S1x128x128
  slices_S2x128_S1x128_1_0 : S2x128.Slices ![1, 0] S1x128
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is five kernel launches among stretches of host operations. Its run from the launch memory ends, on every
  core, with every buffer at the contents the fold of the ten segments leaves there: a host stretch leaves its
  operations' results, a launch leaves each of its arrays at what its write-backs make of it. Read at the result buffer
  this names the program's result, `finalContents`; read at an argument it is the argument as launched, since no
  segment writes one.
-/
import proofs.«107432_j87471303950923_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result buffer holds when the last launch has written back: the fold of all ten segments, read there. -/
abbrev finalContents (c : Dev nD) : Buf (Elt F) ((c.tc : Thread nD τ).loc main_v98) :=
  W10 m ρ c (Proc.devRef .tc main_v98)

set_option backward.isDefEq.respectTransparency.types false in
/-- Every weakly fair execution of the program terminates, nothing faulting, with the result buffer at
    `finalContents` and the six argument arrays as launched. -/
theorem run : θ_run defs (onTc (τ := τ) (main (F := F))) ⟨m, fun _ => 0, ρ⟩ (fun r => ∀ c : Dev nD,
      r.2.mem ((c.tc : Thread nD τ).loc main_v98) = finalContents m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v98 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Result

end
-- ==== Proof.Carry.lean ====
/-
  Buffers that ride unchanged through the program's segments.

  The edge lists, the inverse square roots of the degrees and the weight and bias arguments are written once (or
  never) and read by later stretches of host operations. A launch changes only its own arrays and a stretch only its
  own results, so at every later segment boundary these buffers hold what they held after the first stretch.
-/
import proofs.«107432_j87471303950923_1_alg».proof.Proof.Gen.KernelIdeal.Frame
import Idealize.ShloMosaic.Lib.StableHlo.Run
import Idealize.ShloMosaic.PureOps.Ideal

set_option maxRecDepth 16384

noncomputable section

namespace Cert.KernelIdeal.Carry

open Cert.KernelIdeal Cert.KernelIdeal.Gen Idealize.ShloMosaic Idealize.ShloMosaic.TcCoe Idealize.SL.Sem

/-- No operation of a literal stretch writes a given buffer: the stretch's results are other buffers, one by one. -/
macro "nw" : tactic => `(tactic| (
  simp only [hostOps0, hostOps1, hostOps2, hostOps3, hostOps4, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The arguments at the first launch's entry -/

/-- No operation of the first stretch writes `main_arg0`. -/
theorem W1_main_arg0 : W1 m ρ c (Proc.devRef .tc main_arg0) = m ((c : Thread nD τ).loc main_arg0) :=
  (StableHlo.after_of_forall_not_mem (b := Proc.devRef .tc main_arg0) (hostOps0 (F := Ideal)) (W0 m ρ c) (List.forall_iff_forall_mem.mp (by nw)))
/-- No operation of the first stretch writes `main_arg2`. -/
theorem W1_main_arg2 : W1 m ρ c (Proc.devRef .tc main_arg2) = m ((c : Thread nD τ).loc main_arg2) :=
  (StableHlo.after_of_forall_not_mem (b := Proc.devRef .tc main_arg2) (hostOps0 (F := Ideal)) (W0 m ρ c) (List.forall_iff_forall_mem.mp (by nw)))
/-- No operation of the first stretch writes `main_arg4`. -/
theorem W1_main_arg4 : W1 m ρ c (Proc.devRef .tc main_arg4) = m ((c : Thread nD τ).loc main_arg4) :=
  (StableHlo.after_of_forall_not_mem (b := Proc.devRef .tc main_arg4) (hostOps0 (F := Ideal)) (W0 m ρ c) (List.forall_iff_forall_mem.mp (by nw)))
/-- No operation of the first stretch writes `main_arg5`. -/
theorem W1_main_arg5 : W1 m ρ c (Proc.devRef .tc main_arg5) = m ((c : Thread nD τ).loc main_arg5) :=
  (StableHlo.after_of_forall_not_mem (b := Proc.devRef .tc main_arg5) (hostOps0 (F := Ideal)) (W0 m ρ c) (List.forall_iff_forall_mem.mp (by nw)))

/-! ## Through the first two launches -/

/-- `main_v3` rides from the first launch's entry to the second launch's exit. -/
theorem W4_main_v3 : W4 m ρ c (Proc.devRef .tc main_v3) = W1 m ρ c (Proc.devRef .tc main_v3) :=
  (W4_of_ne m ρ c main_v3 (by decide)).trans ((StableHlo.after_of_forall_not_mem (b := Proc.devRef .tc main_v3) (hostOps1 (F := Ideal)) (W2 m ρ c) (List.forall_iff_forall_mem.mp (by nw))).trans (W2_of_ne m ρ c main_v3 (by decide)))
/-- `main_v6` rides from the first launch's entry to the second launch's exit. -/
theorem W4_main_v6 : W4 m ρ c (Proc.devRef .tc main_v6) = W1 m ρ c (Proc.devRef .tc main_v6) :=
  (W4_of_ne m ρ c main_v6 (by decide)).trans ((StableHlo.after_of_forall_not_mem (b := Proc.devRef .tc main_v6) (hostOps1 (F := Ideal)) (W2 m ρ c) (List.forall_iff_forall_mem.mp (by nw))).trans (W2_of_ne m ρ c main_v6 (by decide)))
/-- `main_v16` rides from the first launch's entry to the second launch's exit. -/
theorem W4_main_v16 : W4 m ρ c (Proc.devRef .tc main_v16) = W1 m ρ c (Proc.devRef .tc main_v16) :=
  (W4_of_ne m ρ c main_v16 (by decide)).trans ((StableHlo.after_of_forall_not_mem (b := Proc.devRef .tc main_v16) (hostOps1 (F := Ideal)) (W2 m ρ c) (List.forall_iff_forall_mem.mp (by nw))).trans (W2_of_ne m ρ c main_v16 (by decide)))
/-- `main_arg5` rides from the first launch's entry to the second launch's exit. -/
theorem W4_main_arg5 : W4 m ρ c (Proc.devRef .tc main_arg5) = W1 m ρ c (Proc.devRef .tc main_arg5) :=
  (W4_of_ne m ρ c main_arg5 (by decide)).trans ((StableHlo.after_of_forall_not_mem (b := Proc.devRef .tc main_arg5) (hostOps1 (F := Ideal)) (W2 m ρ c) (List.forall_iff_forall_mem.mp (by nw))).trans (W2_of_ne m ρ c main_arg5 (by decide)))

/-- The weights ride from the first launch's entry to its exit. -/
theorem W2_main_arg4 : W2 m ρ c (Proc.devRef .tc main_arg4) = W1 m ρ c (Proc.devRef .tc main_arg4) :=
  W2_of_ne m ρ c main_arg4 (by decide)

/-! ## Through the next two launches -/

/-- `main_v3` rides from the second launch's exit to the fourth launch's exit. -/
theorem W8_main_v3 : W8 m ρ c (Proc.devRef .tc main_v3) = W4 m ρ c (Proc.devRef .tc main_v3) :=
  (W8_of_ne m ρ c main_v3 (by decide)).trans ((StableHlo.after_of_forall_not_mem (b := Proc.devRef .tc main_v3) (hostOps3 (F := Ideal)) (W6 m ρ c) (List.forall_iff_forall_mem.mp (by nw))).trans
    ((W6_of_ne m ρ c main_v3 (by decide)).trans (StableHlo.after_of_forall_not_mem (b := Proc.devRef .tc main_v3) (hostOps2 (F := Ideal)) (W4 m ρ c) (List.forall_iff_forall_mem.mp (by nw)))))
/-- `main_v6` rides from the second launch's exit to the fourth launch's exit. -/
theorem W8_main_v6 : W8 m ρ c (Proc.devRef .tc main_v6) = W4 m ρ c (Proc.devRef .tc main_v6) :=
  (W8_of_ne m ρ c main_v6 (by decide)).trans ((StableHlo.after_of_forall_not_mem (b := Proc.devRef .tc main_v6) (hostOps3 (F := Ideal)) (W6 m ρ c) (List.forall_iff_forall_mem.mp (by nw))).trans
    ((W6_of_ne m ρ c main_v6 (by decide)).trans (StableHlo.after_of_forall_not_mem (b := Proc.devRef .tc main_v6) (hostOps2 (F := Ideal)) (W4 m ρ c) (List.forall_iff_forall_mem.mp (by nw)))))
/-- `main_v16` rides from the second launch's exit to the fourth launch's exit. -/
theorem W8_main_v16 : W8 m ρ c (Proc.devRef .tc main_v16) = W4 m ρ c (Proc.devRef .tc main_v16) :=
  (W8_of_ne m ρ c main_v16 (by decide)).trans ((StableHlo.after_of_forall_not_mem (b := Proc.devRef .tc main_v16) (hostOps3 (F := Ideal)) (W6 m ρ c) (List.forall_iff_forall_mem.mp (by nw))).trans
    ((W6_of_ne m ρ c main_v16 (by decide)).trans (StableHlo.after_of_forall_not_mem (b := Proc.devRef .tc main_v16) (hostOps2 (F := Ideal)) (W4 m ρ c) (List.forall_iff_forall_mem.mp (by nw)))))
/-- `main_arg5` rides from the second launch's exit to the fourth launch's exit. -/
theorem W8_main_arg5 : W8 m ρ c (Proc.devRef .tc main_arg5) = W4 m ρ c (Proc.devRef .tc main_arg5) :=
  (W8_of_ne m ρ c main_arg5 (by decide)).trans ((StableHlo.after_of_forall_not_mem (b := Proc.devRef .tc main_arg5) (hostOps3 (F := Ideal)) (W6 m ρ c) (List.forall_iff_forall_mem.mp (by nw))).trans
    ((W6_of_ne m ρ c main_arg5 (by decide)).trans (StableHlo.after_of_forall_not_mem (b := Proc.devRef .tc main_arg5) (hostOps2 (F := Ideal)) (W4 m ρ c) (List.forall_iff_forall_mem.mp (by nw)))))

/-- The weights ride on to the third launch's exit. -/
theorem W6_main_arg4 : W6 m ρ c (Proc.devRef .tc main_arg4) = W1 m ρ c (Proc.devRef .tc main_arg4) :=
  (W6_of_ne m ρ c main_arg4 (by decide)).trans ((StableHlo.after_of_forall_not_mem (b := Proc.devRef .tc main_arg4) (hostOps2 (F := Ideal)) (W4 m ρ c) (List.forall_iff_forall_mem.mp (by nw))).trans
    ((W4_of_ne m ρ c main_arg4 (by decide)).trans ((StableHlo.after_of_forall_not_mem (b := Proc.devRef .tc main_arg4) (hostOps1 (F := Ideal)) (W2 m ρ c) (List.forall_iff_forall_mem.mp (by nw))).trans (W2_main_arg4 m ρ c))))

/-- The first launch's output is not touched by the stretch after it. -/
theorem W3_main_v18 : W3 m ρ c (Proc.devRef .tc main_v18) = W2 m ρ c (Proc.devRef .tc main_v18) :=
  (StableHlo.after_of_forall_not_mem (b := Proc.devRef .tc main_v18) (hostOps1 (F := Ideal)) (W2 m ρ c) (List.forall_iff_forall_mem.mp (by nw)))

/-- The third launch's output is not touched by the stretch after it. -/
theorem W7_main_v58 : W7 m ρ c (Proc.devRef .tc main_v58) = W6 m ρ c (Proc.devRef .tc main_v58) :=
  (StableHlo.after_of_forall_not_mem (b := Proc.devRef .tc main_v58) (hostOps3 (F := Ideal)) (W6 m ρ c) (List.forall_iff_forall_mem.mp (by nw)))

end Cert.KernelIdeal.Carry

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.Layer.lean ====
/-
  The steps of one layer of the network, as functions of whole arrays on the extended reals, index by index.

  * `prod h w`: the product of an `a × 128` matrix by a `128 × 128` matrix; entry `(p, q)` is `∑ k, h (p, k) * w (k, q)`.
  * `biasRelu x r`: add the row `r` of 128 biases to every row of `x` and keep the positive part, `max (x + r) 0`.

  Each step is met in two spellings. A kernel computes the product as a matrix product into a zero accumulator (after
  rounding its operands to a narrower format, which is the identity on the extended reals) and the host as a dot
  product contracting the shared axis: both are `prod`, the contraction's sum re-indexed by the shared coordinate. A
  kernel adds the bias row by stretching it over the rows of its block and takes the maximum with a splat of the zero
  word; the host stretches the row by a broadcast and takes the maximum with a broadcast zero: both are `biasRelu`.
  Last, a vector of 128 entries laid out as a `1 × 128` row is the same row whether a reshape or a broadcast made it.
  Nothing here needs a finite entry: only the definitions of the sums and of the maximum are used.
-/
import Idealize.ShloMosaic.Lib.ValueIdx
import Idealize.ShloMosaic.Lib.ValueLayout
import Idealize.ShloMosaic.Lib.Pipeline.Value
import Idealize.ShloMosaic.PureOps.Ideal.Laws
import proofs.«107432_j87471303950923_1_alg».proof.Proof.LibRowOps

noncomputable section

namespace Cert.Layer

open Idealize.ShloMosaic Idealize.ShloMosaic.ValueIdx

/-- Matrices of 128 columns. -/
abbrev Mat (a : ℕ) : Shape := ⟨2, ![a, 128]⟩
/-- One row of 128 entries. -/
abbrev Row : Shape := ⟨2, ![1, 128]⟩
/-- A vector of 128 entries. -/
abbrev Vec128 : Shape := ⟨1, ![128]⟩

/-- The product of an `a × 128` matrix by a `128 × 128` matrix. -/
def prod {a : ℕ} (h : (Mat a).Idx → EReal) (w : (Mat 128).Idx → EReal) : (Mat a).Idx → EReal :=
  fun i => ∑ k : Fin 128, h (ix2 (i 0) k) * w (ix2 k (i 1))

/-- The bias row added to every row, then the positive part. -/
def biasRelu {a : ℕ} (x : (Mat a).Idx → EReal) (r : Row.Idx → EReal) : (Mat a).Idx → EReal :=
  fun i => max (x i + r (ix2 (0 : Fin 1) (i 1))) 0

theorem prod_apply {a : ℕ} (h : (Mat a).Idx → EReal) (w : (Mat 128).Idx → EReal) (p : Fin a) (q : Fin 128) :
    prod h w (ix2 p q) = ∑ k : Fin 128, h (ix2 p k) * w (ix2 k q) := rfl

theorem biasRelu_apply {a : ℕ} (x : (Mat a).Idx → EReal) (r : Row.Idx → EReal) (p : Fin a) (q : Fin 128) :
    biasRelu x r (ix2 p q) = max (x (ix2 p q) + r (ix2 (0 : Fin 1) q)) 0 := rfl

/-! ## The product, in a kernel and on the host -/

/-- A kernel's matrix product into the zero accumulator, contracting the one shared axis, is `prod`. -/
theorem matmul_zero_eq_prod {a : ℕ} {φ₁ φ₂ : FTy} (d : DotDims (Mat a) (Mat 128) (Mat a)) (hrk : d.contr.rank = 1)
    (hsz : d.contr.size ⟨0, by omega⟩ = 128)
    (hl0 : ∀ j k, (d.lhsIdx j k (0 : Fin 2)).val = (j (0 : Fin 2)).val)
    (hl1 : ∀ j k, (d.lhsIdx j k (1 : Fin 2)).val = (k ⟨0, by omega⟩).val)
    (hr0 : ∀ j k, (d.rhsIdx j k (0 : Fin 2)).val = (k ⟨0, by omega⟩).val)
    (hr1 : ∀ j k, (d.rhsIdx j k (1 : Fin 2)).val = (j (1 : Fin 2)).val)
    (A : FVec Ideal (Mat a) φ₁) (B : FVec Ideal (Mat 128) φ₂) :
    matmul d none A B (constant (F := Ideal) (Mat a) .f32 0x00000000#32) = prod A B := by
  funext j
  obtain ⟨p, q, rfl⟩ : ∃ (p : Fin a) (q : Fin 128), j = ix2 p q := ⟨j 0, j 1, eq_ix2 j⟩
  exact (Ideal.matmul_constant_zero_apply d none A B (ix2 p q)).trans
    (Cert.LibRowOps.sum_contr d hrk hsz hl0 hl1 hr0 hr1 A B p q)

/-- The host's dot product contracting the one shared axis is `prod`. -/
theorem dotGeneral_eq_prod {a : ℕ} {φ₁ φ₂ : FTy} (d : DotDims (Mat a) (Mat 128) (Mat a)) (hrk : d.contr.rank = 1)
    (hsz : d.contr.size ⟨0, by omega⟩ = 128)
    (hl0 : ∀ j k, (d.lhsIdx j k (0 : Fin 2)).val = (j (0 : Fin 2)).val)
    (hl1 : ∀ j k, (d.lhsIdx j k (1 : Fin 2)).val = (k ⟨0, by omega⟩).val)
    (hr0 : ∀ j k, (d.rhsIdx j k (0 : Fin 2)).val = (k ⟨0, by omega⟩).val)
    (hr1 : ∀ j k, (d.rhsIdx j k (1 : Fin 2)).val = (j (1 : Fin 2)).val)
    (A : FVec Ideal (Mat a) φ₁) (B : FVec Ideal (Mat 128) φ₂) :
    Host.dotGeneral d none A B = prod A B := by
  funext j
  obtain ⟨p, q, rfl⟩ : ∃ (p : Fin a) (q : Fin 128), j = ix2 p q := ⟨j 0, j 1, eq_ix2 j⟩
  exact (Ideal.dotGeneral_apply d none .single A B (ix2 p q)).trans
    (Cert.LibRowOps.sum_contr d hrk hsz hl0 hl1 hr0 hr1 A B p q)

/-! ## The bias row and the positive part, in a kernel and on the host -/

/-- A kernel's form: the row stretched over the block's rows, added, and the maximum with a splat of the zero word. -/
theorem kernel_biasRelu {a : ℕ} (x : FVec Ideal (Mat a) .f32) (r : FVec Ideal Row .f32) (h1 : Row.ShapeCasts Row)
    (h2 : Row.Broadcasts (Mat a)) :
    maximumf (addf x (broadcastTo (Mat a) (shapeCast Row r h1) h2))
        (broadcast (Mat a) (Scalar.ofBits (F := Ideal) .f32 0x00000000#32)) = biasRelu x r := by
  funext j
  obtain ⟨p, q, rfl⟩ : ∃ (p : Fin a) (q : Fin 128), j = ix2 p q := ⟨j 0, j 1, eq_ix2 j⟩
  rw [maximumf_apply, addf_apply, broadcast_apply, shapeCast_self, biasRelu_apply]
  rw [broadcastTo_apply r h2 (ix2 p q) (ix2 (0 : Fin 1) q) (fun ax => by
    match ax with
    | ⟨0, _⟩ => rfl
    | ⟨1, _⟩ => rfl)]
  show max _ (Ideal.ofBits .f32 0x00000000#32) = _
  rw [Ideal.ofBits_zero_f32]

/-- The host's form: the row broadcast along the rows, added, and the maximum with a broadcast zero. -/
theorem host_biasRelu {a : ℕ} (x : FVec Ideal (Mat a) .f32) (r : FVec Ideal Row .f32)
    (h2 : Row.BroadcastsInDim (Mat a) (![0, 1] : Fin 2 → Fin 2))
    (h0 : (⟨0, ![]⟩ : Shape).BroadcastsInDim (Mat a) (![] : Fin 0 → Fin 2)) :
    maximumf (addf x (broadcastInDim (Mat a) ![0, 1] h2 r))
        (broadcastInDim (Mat a) ![] h0 (constant (F := Ideal) ⟨0, ![]⟩ .f32 0x00000000#32)) = biasRelu x r := by
  funext j
  obtain ⟨p, q, rfl⟩ : ∃ (p : Fin a) (q : Fin 128), j = ix2 p q := ⟨j 0, j 1, eq_ix2 j⟩
  rw [maximumf_apply, addf_apply, Cert.LibRowOps.broadcastInDim_1b_ab_apply h2 r p q,
    Cert.LibRowOps.broadcastInDim_scalar_apply h0, biasRelu_apply]
  show max _ (Ideal.ofBits .f32 0x00000000#32) = _
  rw [Ideal.ofBits_zero_f32]

/-! ## A vector as a row -/

/-- A vector of 128 entries reshaped to a `1 × 128` row, and the same vector broadcast to that row, are one row. -/
theorem row_of_vec {α : Type} (v : Vec128.Idx → α) (h : Vec128.ShapeCasts Row)
    (h' : Vec128.BroadcastsInDim Row (![1] : Fin 1 → Fin 2)) :
    shapeCast Row v h = broadcastInDim Row ![1] h' v := by
  funext j
  obtain ⟨u, q, rfl⟩ : ∃ (u : Fin 1) (q : Fin 128), j = ix2 u q := ⟨j 0, j 1, eq_ix2 j⟩
  rw [Cert.LibRowOps.broadcastInDim_b_1b_apply h' v u q]
  refine (shapeCast_addUnit_apply (n := 1) ![128] v h (ix2 u q)).trans (congrArg v ?_)
  funext a
  match a with
  | ⟨0, _⟩ => rfl

end Cert.Layer

end
-- ==== Proof.Payloads.lean ====
/-
  What each kernel body computes from the blocks it loads, on the extended reals.

  The first kernel's body is the product of its block of rows with the weight matrix, the bias row added and the
  positive part kept; the second and fourth kernels' bodies are the product alone; the third and fifth kernels' bodies
  are the bias row added and the positive part kept. The rounding of the product's operands to a narrower format is
  the identity here, and a reshape to the same shape changes nothing. The product's operand indices at an output index
  `(p, q)` and a contraction position `k` are `(p, k)` and `(k, q)`: read off the dimension numbers.
-/
import proofs.«107432_j87471303950923_1_alg».proof.Proof.Gen.KernelIdeal.Skeleton
import proofs.«107432_j87471303950923_1_alg».proof.Proof.Layer

noncomputable section

namespace Cert.KernelIdeal.Pay

open Cert.KernelIdeal Cert.KernelIdeal.Gen Idealize.ShloMosaic Idealize.ShloMosaic.ValueIdx Cert.Layer

/-- The kernels' product: a block of 10000 rows times the 128 × 128 weights. -/
abbrev dK : DotDims S10000x128 S128x128 S10000x128 := dot_S10000x128_S128x128_S10000x128_1_0_0_1_n_n

theorem dK_l0 (i : S10000x128.Idx) (q : dK.contr.Idx) : (dK.lhsIdx i q 0).val = (i 0).val := by
  unfold DotDims.lhsIdx
  rw [dif_neg (show ¬(0 : Fin S10000x128.rank) ∈ dK.lhsBatch by decide),
    dif_pos (show (0 : Fin S10000x128.rank) ∈ dK.lhsNonContracting by decide)]
  rfl
theorem dK_l1 (i : S10000x128.Idx) (q : dK.contr.Idx) : (dK.lhsIdx i q 1).val = (q ⟨0, by decide⟩).val :=
  dK.lhsIdx_val_of_single rfl i q
theorem dK_r0 (i : S10000x128.Idx) (q : dK.contr.Idx) : (dK.rhsIdx i q 0).val = (q ⟨0, by decide⟩).val :=
  dK.rhsIdx_val_of_single rfl i q
theorem dK_r1 (i : S10000x128.Idx) (q : dK.contr.Idx) : (dK.rhsIdx i q 1).val = (i 1).val := by
  unfold DotDims.rhsIdx
  rw [dif_neg (show ¬(1 : Fin S128x128.rank) ∈ dK.rhsBatch by decide),
    dif_pos (show (1 : Fin S128x128.rank) ∈ dK.rhsNonContracting by decide)]
  rfl

/-- The kernels' matrix product of two loaded blocks into the zero accumulator is `prod`. -/
theorem matmul_eq (A : FVec Ideal S10000x128 .bf16) (B : FVec Ideal S128x128 .bf16) :
    matmul dK none A B (constant (F := Ideal) S10000x128 .f32 0x00000000#32) = prod A B :=
  matmul_zero_eq_prod (a := 10000) dK rfl rfl dK_l0 dK_l1 dK_r0 dK_r1 A B

/-- The first kernel: the product, the bias row, the positive part. -/
theorem pay0_eq (x0 : Vec Ideal S10000x128 .f32) (x1 : Vec Ideal S128x128 .f32) (x2 : Vec Ideal S1x128 .f32) :
    k0_pay1 (F := Ideal) x0 x1 x2 = biasRelu (prod x0 x1) x2 := by
  show maximumf (addf (matmul dK none (truncf .bf16 x0 bitsLt_bf16_f32) (truncf .bf16 x1 bitsLt_bf16_f32)
        (constant (F := Ideal) S10000x128 .f32 0x00000000#32))
      (broadcastTo S10000x128 (shapeCast S1x128 x2 shapeCasts_S1x128_S1x128) broadcasts_S1x128_S10000x128))
      (broadcast S10000x128 (Scalar.ofBits (F := Ideal) .f32 0x00000000#32)) = _
  rw [matmul_eq]
  exact kernel_biasRelu (a := 10000) _ x2 _ _

/-- The second kernel: the product. -/
theorem pay1_eq (x0 : Vec Ideal S10000x128 .f32) (x1 : Vec Ideal S128x128 .f32) :
    k1_pay1 (F := Ideal) x0 x1 = prod x0 x1 := by
  show matmul dK none (truncf .bf16 (shapeCast S10000x128 x0 shapeCasts_S10000x128_S10000x128) bitsLt_bf16_f32)
      (truncf .bf16 (shapeCast S128x128 x1 shapeCasts_S128x128_S128x128) bitsLt_bf16_f32)
      (constant (F := Ideal) S10000x128 .f32 0x00000000#32) = _
  rw [matmul_eq, shapeCast_self, shapeCast_self]
  rfl

/-- The fourth kernel: the product. -/
theorem pay3_eq (x0 : Vec Ideal S10000x128 .f32) (x1 : Vec Ideal S128x128 .f32) :
    k3_pay1 (F := Ideal) x0 x1 = prod x0 x1 := by
  show matmul dK none (truncf .bf16 (shapeCast S10000x128 x0 shapeCasts_S10000x128_S10000x128) bitsLt_bf16_f32)
      (truncf .bf16 (shapeCast S128x128 x1 shapeCasts_S128x128_S128x128) bitsLt_bf16_f32)
      (constant (F := Ideal) S10000x128 .f32 0x00000000#32) = _
  rw [matmul_eq, shapeCast_self, shapeCast_self]
  rfl

/-- The third kernel: the bias row, the positive part. -/
theorem pay2_eq (x0 : Vec Ideal S10000x128 .f32) (x1 : Vec Ideal S1x128 .f32) :
    k2_pay1 (F := Ideal) x0 x1 = biasRelu x0 x1 := by
  show maximumf (addf (shapeCast S10000x128 x0 shapeCasts_S10000x128_S10000x128)
      (broadcastTo S10000x128 (shapeCast S1x128 x1 shapeCasts_S1x128_S1x128) broadcasts_S1x128_S10000x128))
      (broadcast S10000x128 (Scalar.ofBits (F := Ideal) .f32 0x00000000#32)) = _
  rw [shapeCast_self x0]
  exact kernel_biasRelu (a := 10000) x0 x1 _ _

/-- The fifth kernel: the bias row, the positive part. -/
theorem pay4_eq (x0 : Vec Ideal S10000x128 .f32) (x1 : Vec Ideal S1x128 .f32) :
    k4_pay1 (F := Ideal) x0 x1 = biasRelu x0 x1 := by
  show maximumf (addf (shapeCast S10000x128 x0 shapeCasts_S10000x128_S10000x128)
      (broadcastTo S10000x128 (shapeCast S1x128 x1 shapeCasts_S1x128_S1x128) broadcasts_S1x128_S10000x128))
      (broadcast S10000x128 (Scalar.ofBits (F := Ideal) .f32 0x00000000#32)) = _
  rw [shapeCast_self x0]
  exact kernel_biasRelu (a := 10000) x0 x1 _ _

end Cert.KernelIdeal.Pay

end
-- ==== Proof.Launch0.lean ====
/-
  The first launch: the input features times the input weights, the bias row added, the positive part kept.

  Its output array ends at `biasRelu (prod x w) r`: `x` the 50000 rows of features, `w` the weights, `r` the bias row, as the launch finds them.
  The launch has five grid points; point `t` works on rows `10000 t` to `10000 t + 9999`: its input block of rows and
  its output block sit at the same rows, the other operands are read whole at every point. So what point `t` writes
  back is block `t` of one function of the arrays as the launch finds them, and the five blocks tile the 50000 rows:
  after the launch the output array holds that function.
-/
import proofs.«107432_j87471303950923_1_alg».proof.Proof.Gen.KernelIdeal.Frame
import proofs.«107432_j87471303950923_1_alg».proof.Proof.Payloads

set_option maxRecDepth 16384

noncomputable section

namespace Cert.KernelIdeal.Launch0

open Cert.KernelIdeal Cert.KernelIdeal.Gen Idealize.ShloMosaic Idealize.ShloMosaic.TcCoe Idealize.ShloMosaic.ValueIdx
open Idealize.SL.Sem Cert.Layer
open Idealize.ShloMosaic.Pipeline (Dat)

variable (V : (c : Dev nD) → (b : Ref sig .tc) → Buf (Elt Ideal) ((c : Thread nD τ).loc b))

/-- The feature rows, as the launch finds them. -/
abbrev in0 (c : Dev nD) : S50000x128.Idx → EReal := V c main_arg0
/-- The weights, as the launch finds them. -/
abbrev in1 (c : Dev nD) : S128x128.Idx → EReal := V c main_arg2
/-- The bias row, as the launch finds it. -/
abbrev in2 (c : Dev nD) : S1x128.Idx → EReal := V c main_v17

theorem hz : (![0, 0] : Fin 2 → Nat) = fun _ => 0 := funext fun a => by fin_cases a <;> rfl

/-- The printed index maps over the grid: the rows' block index is the point's for the input and the output alike,
    every other block index is zero. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Each of the five row blocks is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- What point `t` writes back is block `t` of the whole-array function. -/
theorem flushed_eq (c : Dev nD) (t : Fin cfg0.N) :
    (dat0 V c).flushed 3 t = ((cfg0.win 3).blk t).view.read (Elt Ideal) (biasRelu (prod (in0 V c) (in1 V c)) (in2 V c) : S50000x128.Idx → EReal) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  rw [Pay.pay0_eq]
  obtain ⟨e0, e1, e2, e3, e4, e5, e6⟩ := idx_facts t
  funext j
  show max ((∑ k : Fin 128, in0 V c (((cfg0.win 0).blk t).view.emb (ix2 (j 0) k)) * in1 V c (((cfg0.win 1).blk t).view.emb (ix2 k (j 1)))) + in2 V c (((cfg0.win 2).blk t).view.emb (ix2 (0 : Fin 1) (j 1)))) 0 = max ((∑ k : Fin 128, in0 V c (ix2 ((((cfg0.win 3).blk t).view.emb j) 0) k) * in1 V c (ix2 k ((((cfg0.win 3).blk t).view.emb j) 1))) + in2 V c (ix2 (0 : Fin 1) ((((cfg0.win 3).blk t).view.emb j) 1))) 0
  have hsum : (∑ k : Fin 128, in0 V c (((cfg0.win 0).blk t).view.emb (ix2 (j 0) k)) * in1 V c (((cfg0.win 1).blk t).view.emb (ix2 k (j 1)))) = ∑ k : Fin 128, in0 V c (ix2 ((((cfg0.win 3).blk t).view.emb j) 0) k) * in1 V c (ix2 k ((((cfg0.win 3).blk t).view.emb j) 1)) := by
    refine Finset.sum_congr rfl fun k _ => ?_
    have h0 : (((cfg0.win 0).blk t).view.emb (ix2 (j 0) k)) = ix2 ((((cfg0.win 3).blk t).view.emb j) 0) k := by
      funext ax; apply Fin.ext
      match ax with
      | ⟨0, _⟩ => show win0_0.index t (0 : Fin 2) * 10000 + 1 * (j 0).val = win0_3.index t (0 : Fin 2) * 10000 + 1 * (j 0).val; omega
      | ⟨1, _⟩ => show win0_0.index t (1 : Fin 2) * 128 + 1 * k.val = k.val; omega
    have h1 : (((cfg0.win 1).blk t).view.emb (ix2 k (j 1))) = ix2 k ((((cfg0.win 3).blk t).view.emb j) 1) := by
      funext ax; apply Fin.ext
      match ax with
      | ⟨0, _⟩ => show win0_1.index t (0 : Fin 2) * 128 + 1 * k.val = k.val; omega
      | ⟨1, _⟩ => show win0_1.index t (1 : Fin 2) * 128 + 1 * (j 1).val = win0_3.index t (1 : Fin 2) * 128 + 1 * (j 1).val; omega
    rw [h0, h1]
    rfl
  have h2 : (((cfg0.win 2).blk t).view.emb (ix2 (0 : Fin 1) (j 1))) = ix2 (0 : Fin 1) ((((cfg0.win 3).blk t).view.emb j) 1) := by
    funext ax; apply Fin.ext
    match ax with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hsum, h2]
  rfl

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v18).slice (win0_3.rect t)).set ↔ _
  rw [View.set_slice_whole, Rect.mem_set_unit]
  exact Iff.rfl

/-- Every index of the output array is in some point's block: row `r` in the block of point `r / 10000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the launch the output array holds the whole-array function of the arrays as the launch found them. -/
theorem final (c : Dev nD) : (dat0 V c).arrAt 3 cfg0.N = (biasRelu (prod (in0 V c) (in1 V c)) (in2 V c) : S50000x128.Idx → EReal) :=
  (dat0 V c).arrAt_eq_of_cover 3 _ (fun t _ => flushed_eq V c t) cover

end Cert.KernelIdeal.Launch0

end
-- ==== Proof.Launch1.lean ====
/-
  The second launch: the first layer's output times the first 128 × 128 weight matrix.

  Its output array ends at `prod h w`, `h` the array of 50000 rows and `w` the weights, both as the launch finds them.
  The launch has five grid points; point `t` works on rows `10000 t` to `10000 t + 9999`: its input block of rows and
  its output block sit at the same rows, the other operands are read whole at every point. So what point `t` writes
  back is block `t` of one function of the arrays as the launch finds them, and the five blocks tile the 50000 rows:
  after the launch the output array holds that function.
-/
import proofs.«107432_j87471303950923_1_alg».proof.Proof.Gen.KernelIdeal.Frame
import proofs.«107432_j87471303950923_1_alg».proof.Proof.Payloads

set_option maxRecDepth 16384

noncomputable section

namespace Cert.KernelIdeal.Launch1

open Cert.KernelIdeal Cert.KernelIdeal.Gen Idealize.ShloMosaic Idealize.ShloMosaic.TcCoe Idealize.ShloMosaic.ValueIdx
open Idealize.SL.Sem Cert.Layer
open Idealize.ShloMosaic.Pipeline (Dat)

variable (V : (c : Dev nD) → (b : Ref sig .tc) → Buf (Elt Ideal) ((c : Thread nD τ).loc b))

/-- The rows, as the launch finds them. -/
abbrev in0 (c : Dev nD) : S50000x128.Idx → EReal := V c main_v18
/-- The weights, as the launch finds them. -/
abbrev in1 (c : Dev nD) : S128x128.Idx → EReal := V c main_v20

theorem hz : (![0, 0] : Fin 2 → Nat) = fun _ => 0 := funext fun a => by fin_cases a <;> rfl

/-- The printed index maps over the grid: the rows' block index is the point's for the input and the output alike,
    every other block index is zero. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Each of the five row blocks is some point's. -/
theorem idx_onto : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of the whole-array function. -/
theorem flushed_eq (c : Dev nD) (t : Fin cfg1.N) :
    (dat1 V c).flushed 2 t = ((cfg1.win 2).blk t).view.read (Elt Ideal) (prod (in0 V c) (in1 V c) : S50000x128.Idx → EReal) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  rw [Pay.pay1_eq]
  obtain ⟨e0, e1, e2, e3, e4⟩ := idx_facts t
  funext j
  show (∑ k : Fin 128, in0 V c (((cfg1.win 0).blk t).view.emb (ix2 (j 0) k)) * in1 V c (((cfg1.win 1).blk t).view.emb (ix2 k (j 1)))) = ∑ k : Fin 128, in0 V c (ix2 ((((cfg1.win 2).blk t).view.emb j) 0) k) * in1 V c (ix2 k ((((cfg1.win 2).blk t).view.emb j) 1))
  refine Finset.sum_congr rfl fun k _ => ?_
  have h0 : (((cfg1.win 0).blk t).view.emb (ix2 (j 0) k)) = ix2 ((((cfg1.win 2).blk t).view.emb j) 0) k := by
    funext ax; apply Fin.ext
    match ax with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : (((cfg1.win 1).blk t).view.emb (ix2 k (j 1))) = ix2 k ((((cfg1.win 2).blk t).view.emb j) 1) := by
    funext ax; apply Fin.ext
    match ax with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]
  rfl

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v21).slice (win1_2.rect t)).set ↔ _
  rw [View.set_slice_whole, Rect.mem_set_unit]
  exact Iff.rfl

/-- Every index of the output array is in some point's block: row `r` in the block of point `r / 10000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the launch the output array holds the whole-array function of the arrays as the launch found them. -/
theorem final (c : Dev nD) : (dat1 V c).arrAt 2 cfg1.N = (prod (in0 V c) (in1 V c) : S50000x128.Idx → EReal) :=
  (dat1 V c).arrAt_eq_of_cover 2 _ (fun t _ => flushed_eq V c t) cover

end Cert.KernelIdeal.Launch1

end
-- ==== Proof.Launch2.lean ====
/-
  The third launch: the first aggregation with its bias row added and the positive part kept.

  Its output array ends at `biasRelu a r`, `a` the aggregated array of 50000 rows and `r` the bias row, both as the launch finds them.
  The launch has five grid points; point `t` works on rows `10000 t` to `10000 t + 9999`: its input block of rows and
  its output block sit at the same rows, the other operands are read whole at every point. So what point `t` writes
  back is block `t` of one function of the arrays as the launch finds them, and the five blocks tile the 50000 rows:
  after the launch the output array holds that function.
-/
import proofs.«107432_j87471303950923_1_alg».proof.Proof.Gen.KernelIdeal.Frame
import proofs.«107432_j87471303950923_1_alg».proof.Proof.Payloads

set_option maxRecDepth 16384

noncomputable section

namespace Cert.KernelIdeal.Launch2

open Cert.KernelIdeal Cert.KernelIdeal.Gen Idealize.ShloMosaic Idealize.ShloMosaic.TcCoe Idealize.ShloMosaic.ValueIdx
open Idealize.SL.Sem Cert.Layer
open Idealize.ShloMosaic.Pipeline (Dat)

variable (V : (c : Dev nD) → (b : Ref sig .tc) → Buf (Elt Ideal) ((c : Thread nD τ).loc b))

/-- The aggregated rows, as the launch finds them. -/
abbrev in0 (c : Dev nD) : S50000x128.Idx → EReal := V c main_v54
/-- The bias row, as the launch finds it. -/
abbrev in1 (c : Dev nD) : S1x128.Idx → EReal := V c main_v57

theorem hz : (![0, 0] : Fin 2 → Nat) = fun _ => 0 := funext fun a => by fin_cases a <;> rfl

/-- The printed index maps over the grid: the rows' block index is the point's for the input and the output alike,
    every other block index is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Each of the five row blocks is some point's. -/
theorem idx_onto : ∀ q0 : Fin 5, ∃ t : Fin cfg2.N, win2_2.index t = ![q0.val, 0] :=
  (by decide +kernel : ∀ q0 : Fin 5, ∃ t : Fin grid2.N, win2_2.index t = ![q0.val, 0])

/-- What point `t` writes back is block `t` of the whole-array function. -/
theorem flushed_eq (c : Dev nD) (t : Fin cfg2.N) :
    (dat2 V c).flushed 2 t = ((cfg2.win 2).blk t).view.read (Elt Ideal) (biasRelu (in0 V c) (in1 V c) : S50000x128.Idx → EReal) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  rw [Pay.pay2_eq]
  obtain ⟨e0, e1, e2, e3, e4⟩ := idx_facts t
  funext j
  show max (in0 V c (((cfg2.win 0).blk t).view.emb j) + in1 V c (((cfg2.win 1).blk t).view.emb (ix2 (0 : Fin 1) (j 1)))) 0 = max (in0 V c (((cfg2.win 2).blk t).view.emb j) + in1 V c (ix2 (0 : Fin 1) ((((cfg2.win 2).blk t).view.emb j) 1))) 0
  have h0 : (((cfg2.win 0).blk t).view.emb j) = (((cfg2.win 2).blk t).view.emb j) := by
    funext ax; apply Fin.ext
    match ax with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  have h1 : (((cfg2.win 1).blk t).view.emb (ix2 (0 : Fin 1) (j 1))) = ix2 (0 : Fin 1) ((((cfg2.win 2).blk t).view.emb j) 1) := by
    funext ax; apply Fin.ext
    match ax with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega
  rw [h0, h1]
  rfl

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v58).slice (win2_2.rect t)).set ↔ _
  rw [View.set_slice_whole, Rect.mem_set_unit]
  exact Iff.rfl

/-- Every index of the output array is in some point's block: row `r` in the block of point `r / 10000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the launch the output array holds the whole-array function of the arrays as the launch found them. -/
theorem final (c : Dev nD) : (dat2 V c).arrAt 2 cfg2.N = (biasRelu (in0 V c) (in1 V c) : S50000x128.Idx → EReal) :=
  (dat2 V c).arrAt_eq_of_cover 2 _ (fun t _ => flushed_eq V c t) cover

end Cert.KernelIdeal.Launch2

end
-- ==== Proof.Launch3.lean ====
/-
  The fourth launch: the second layer's input times the second 128 × 128 weight matrix.

  Its output array ends at `prod h w`, `h` the array of 50000 rows and `w` the weights, both as the launch finds them.
  The launch has five grid points; point `t` works on rows `10000 t` to `10000 t + 9999`: its input block of rows and
  its output block sit at the same rows, the other operands are read whole at every point. So what point `t` writes
  back is block `t` of one function of the arrays as the launch finds them, and the five blocks tile the 50000 rows:
  after the launch the output array holds that function.
-/
import proofs.«107432_j87471303950923_1_alg».proof.Proof.Gen.KernelIdeal.Frame
import proofs.«107432_j87471303950923_1_alg».proof.Proof.Payloads

set_option maxRecDepth 16384

noncomputable section

namespace Cert.KernelIdeal.Launch3

open Cert.KernelIdeal Cert.KernelIdeal.Gen Idealize.ShloMosaic Idealize.ShloMosaic.TcCoe Idealize.ShloMosaic.ValueIdx
open Idealize.SL.Sem Cert.Layer
open Idealize.ShloMosaic.Pipeline (Dat)

variable (V : (c : Dev nD) → (b : Ref sig .tc) → Buf (Elt Ideal) ((c : Thread nD τ).loc b))

/-- The rows, as the launch finds them. -/
abbrev in0 (c : Dev nD) : S50000x128.Idx → EReal := V c main_v58
/-- The weights, as the launch finds them. -/
abbrev in1 (c : Dev nD) : S128x128.Idx → EReal := V c main_v60

theorem hz : (![0, 0] : Fin 2 → Nat) = fun _ => 0 := funext fun a => by fin_cases a <;> rfl

/-- The printed index maps over the grid: the rows' block index is the point's for the input and the output alike,
    every other block index is zero. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Each of the five row blocks is some point's. -/
theorem idx_onto : ∀ q0 : Fin 5, ∃ t : Fin cfg3.N, win3_2.index t = ![q0.val, 0] :=
  (by decide +kernel : ∀ q0 : Fin 5, ∃ t : Fin grid3.N, win3_2.index t = ![q0.val, 0])

/-- What point `t` writes back is block `t` of the whole-array function. -/
theorem flushed_eq (c : Dev nD) (t : Fin cfg3.N) :
    (dat3 V c).flushed 2 t = ((cfg3.win 2).blk t).view.read (Elt Ideal) (prod (in0 V c) (in1 V c) : S50000x128.Idx → EReal) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  rw [Pay.pay3_eq]
  obtain ⟨e0, e1, e2, e3, e4⟩ := idx_facts t
  funext j
  show (∑ k : Fin 128, in0 V c (((cfg3.win 0).blk t).view.emb (ix2 (j 0) k)) * in1 V c (((cfg3.win 1).blk t).view.emb (ix2 k (j 1)))) = ∑ k : Fin 128, in0 V c (ix2 ((((cfg3.win 2).blk t).view.emb j) 0) k) * in1 V c (ix2 k ((((cfg3.win 2).blk t).view.emb j) 1))
  refine Finset.sum_congr rfl fun k _ => ?_
  have h0 : (((cfg3.win 0).blk t).view.emb (ix2 (j 0) k)) = ix2 ((((cfg3.win 2).blk t).view.emb j) 0) k := by
    funext ax; apply Fin.ext
    match ax with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * k.val = k.val; omega
  have h1 : (((cfg3.win 1).blk t).view.emb (ix2 k (j 1))) = ix2 k ((((cfg3.win 2).blk t).view.emb j) 1) := by
    funext ax; apply Fin.ext
    match ax with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  rw [h0, h1]
  rfl

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v61).slice (win3_2.rect t)).set ↔ _
  rw [View.set_slice_whole, Rect.mem_set_unit]
  exact Iff.rfl

/-- Every index of the output array is in some point's block: row `r` in the block of point `r / 10000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the launch the output array holds the whole-array function of the arrays as the launch found them. -/
theorem final (c : Dev nD) : (dat3 V c).arrAt 2 cfg3.N = (prod (in0 V c) (in1 V c) : S50000x128.Idx → EReal) :=
  (dat3 V c).arrAt_eq_of_cover 2 _ (fun t _ => flushed_eq V c t) cover

end Cert.KernelIdeal.Launch3

end
-- ==== Proof.Launch4.lean ====
/-
  The fifth launch: the second aggregation with its bias row added and the positive part kept.

  Its output array ends at `biasRelu a r`, `a` the aggregated array of 50000 rows and `r` the bias row, both as the launch finds them.
  The launch has five grid points; point `t` works on rows `10000 t` to `10000 t + 9999`: its input block of rows and
  its output block sit at the same rows, the other operands are read whole at every point. So what point `t` writes
  back is block `t` of one function of the arrays as the launch finds them, and the five blocks tile the 50000 rows:
  after the launch the output array holds that function.
-/
import proofs.«107432_j87471303950923_1_alg».proof.Proof.Gen.KernelIdeal.Frame
import proofs.«107432_j87471303950923_1_alg».proof.Proof.Payloads

set_option maxRecDepth 16384

noncomputable section

namespace Cert.KernelIdeal.Launch4

open Cert.KernelIdeal Cert.KernelIdeal.Gen Idealize.ShloMosaic Idealize.ShloMosaic.TcCoe Idealize.ShloMosaic.ValueIdx
open Idealize.SL.Sem Cert.Layer
open Idealize.ShloMosaic.Pipeline (Dat)

variable (V : (c : Dev nD) → (b : Ref sig .tc) → Buf (Elt Ideal) ((c : Thread nD τ).loc b))

/-- The aggregated rows, as the launch finds them. -/
abbrev in0 (c : Dev nD) : S50000x128.Idx → EReal := V c main_v94
/-- The bias row, as the launch finds it. -/
abbrev in1 (c : Dev nD) : S1x128.Idx → EReal := V c main_v97

theorem hz : (![0, 0] : Fin 2 → Nat) = fun _ => 0 := funext fun a => by fin_cases a <;> rfl

/-- The printed index maps over the grid: the rows' block index is the point's for the input and the output alike,
    every other block index is zero. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Each of the five row blocks is some point's. -/
theorem idx_onto : ∀ q0 : Fin 5, ∃ t : Fin cfg4.N, win4_2.index t = ![q0.val, 0] :=
  (by decide +kernel : ∀ q0 : Fin 5, ∃ t : Fin grid4.N, win4_2.index t = ![q0.val, 0])

/-- What point `t` writes back is block `t` of the whole-array function. -/
theorem flushed_eq (c : Dev nD) (t : Fin cfg4.N) :
    (dat4 V c).flushed 2 t = ((cfg4.win 2).blk t).view.read (Elt Ideal) (biasRelu (in0 V c) (in1 V c) : S50000x128.Idx → EReal) := by
  show (cfg4.win 2).cut (grid4.coords t) ((dat4 V c).after 2 t) = _
  rw [after4_2]
  unfold out4_2
  rw [View.canon_unit_zero hz]
  simp only [View.ld_unit_zero (S := S10000x128) hz, View.ld_unit_zero (S := S1x128) hz]
  rw [Pay.pay4_eq]
  obtain ⟨e0, e1, e2, e3, e4⟩ := idx_facts t
  funext j
  show max (in0 V c (((cfg4.win 0).blk t).view.emb j) + in1 V c (((cfg4.win 1).blk t).view.emb (ix2 (0 : Fin 1) (j 1)))) 0 = max (in0 V c (((cfg4.win 2).blk t).view.emb j) + in1 V c (ix2 (0 : Fin 1) ((((cfg4.win 2).blk t).view.emb j) 1))) 0
  have h0 : (((cfg4.win 0).blk t).view.emb j) = (((cfg4.win 2).blk t).view.emb j) := by
    funext ax; apply Fin.ext
    match ax with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * (j 1).val = win4_2.index t (1 : Fin 2) * 128 + 1 * (j 1).val; omega
  have h1 : (((cfg4.win 1).blk t).view.emb (ix2 (0 : Fin 1) (j 1))) = ix2 (0 : Fin 1) ((((cfg4.win 2).blk t).view.emb j) 1) := by
    funext ax; apply Fin.ext
    match ax with
    | ⟨0, _⟩ => show win4_1.index t (0 : Fin 2) * 1 + 1 * 0 = 0; omega
    | ⟨1, _⟩ => show win4_1.index t (1 : Fin 2) * 128 + 1 * (j 1).val = win4_2.index t (1 : Fin 2) * 128 + 1 * (j 1).val; omega
  rw [h0, h1]
  rfl

/-- An index of the array is in point `t`'s block iff each coordinate is in the block's range on its axis. -/
theorem mem_blk (t : Fin cfg4.N) (i : S50000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v98).slice (win4_2.rect t)).set ↔ _
  rw [View.set_slice_whole, Rect.mem_set_unit]
  exact Iff.rfl

/-- Every index of the output array is in some point's block: row `r` in the block of point `r / 10000`. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- After the launch the output array holds the whole-array function of the arrays as the launch found them. -/
theorem final (c : Dev nD) : (dat4 V c).arrAt 2 cfg4.N = (biasRelu (in0 V c) (in1 V c) : S50000x128.Idx → EReal) :=
  (dat4 V c).arrAt_eq_of_cover 2 _ (fun t _ => flushed_eq V c t) cover

end Cert.KernelIdeal.Launch4

end
-- ==== Proof.RefStages.lean ====
/-
  The reference's layer stages, on the extended reals.

  The reference computes each layer on the host: a dot product contracting the shared axis, which is `prod`; and a
  sum with the bias row broadcast along the rows followed by the maximum with a broadcast zero, which is `biasRelu`.
  So its first layer's output is `biasRelu (prod x w) r`, each later product is `prod` of the previous output with
  its weight matrix, and each later output is `biasRelu` of the aggregated array with its bias row. The aggregation
  between a product and the next bias is left as the reference states it: the kernel's program performs the very same
  host operations there.
-/
import proofs.«107432_j87471303950923_1_alg».proof.Proof.Gen.ReferenceIdeal.Read
import proofs.«107432_j87471303950923_1_alg».proof.Proof.Layer

noncomputable section

namespace Cert.ReferenceIdeal.Stages

open Cert.ReferenceIdeal Cert.ReferenceIdeal.Read Idealize.ShloMosaic Idealize.ShloMosaic.ValueIdx Cert.Layer

/-- The reference's product: 50000 rows times the 128 × 128 weights. -/
abbrev dR : DotDims S50000x128 S128x128 S50000x128 := dot_S50000x128_S128x128_S50000x128_1_0_0_1_n_n

/-- The host's dot product of the rows with a weight matrix is `prod`. -/
theorem dot_eq (A : FVec Ideal S50000x128 .f32) (B : FVec Ideal S128x128 .f32) : Host.dotGeneral dR none A B = prod A B :=
  dotGeneral_eq_prod (a := 50000) dR rfl rfl lhs_main_v17_0 lhs_main_v17_1 rhs_main_v17_0 rhs_main_v17_1 A B

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S2x128x128, .f32⟩ : BufTy).Contents (Elt Ideal)) (x5 : (⟨S2x128, .f32⟩ : BufTy).Contents (Elt Ideal))

/-- The input layer: features times weights, the bias row, the positive part. -/
theorem v21_eq : val_main_v21 (F := Ideal) x0 x2 x3 = biasRelu (prod x0 x2) (val_main_v18 (F := Ideal) x3) := by
  unfold val_main_v21 val_main_v20 val_main_v19 val_main_v17 val_main_call0_v0 val_main_call0_cst
  rw [dot_eq]
  exact host_biasRelu (a := 50000) _ _ _ _

/-- The first layer's product. -/
theorem v26_eq : val_main_v26 (F := Ideal) x0 x2 x3 x4
    = prod (val_main_v21 (F := Ideal) x0 x2 x3) (val_main_v23 (F := Ideal) x4) := by
  unfold val_main_v26
  exact dot_eq _ _

/-- The first layer's output: the aggregation, the bias row, the positive part. -/
theorem v63_eq : val_main_v63 (F := Ideal) x0 x1 x2 x3 x4 x5
    = biasRelu (val_main_v59 (F := Ideal) x0 x1 x2 x3 x4) (val_main_v60 (F := Ideal) x5) := by
  unfold val_main_v63 val_main_v62 val_main_v61 val_main_call1_v0 val_main_call1_cst
  exact host_biasRelu (a := 50000) _ _ _ _

/-- The second layer's product. -/
theorem v68_eq : val_main_v68 (F := Ideal) x0 x1 x2 x3 x4 x5
    = prod (val_main_v63 (F := Ideal) x0 x1 x2 x3 x4 x5) (val_main_v65 (F := Ideal) x4) := by
  unfold val_main_v68
  exact dot_eq _ _

/-- The second layer's output, the program's result. -/
theorem v105_eq : val_main_v105 (F := Ideal) x0 x1 x2 x3 x4 x5
    = biasRelu (val_main_v101 (F := Ideal) x0 x1 x2 x3 x4 x5) (val_main_v102 (F := Ideal) x5) := by
  unfold val_main_v105 val_main_v104 val_main_v103 val_main_call2_v0 val_main_call2_cst
  exact host_biasRelu (a := 50000) _ _ _ _

end Cert.ReferenceIdeal.Stages

end
-- ==== Proof.Stages.lean ====
/-
  The kernel program's segment boundaries, read back against the reference's stages.

  Both programs compute, from the same arguments: the edge lists with the self loops appended, the inverse square
  roots of the in-degrees, the input layer `biasRelu (prod x w) r`, and twice a product with a weight matrix, the
  aggregation of the scaled rows along the edges, and `biasRelu` with a bias row. The reference does all of it on the
  host. The kernel program does the layer steps in five launches and everything else by the very same host operations,
  so each stretch of host operations leaves in its buffers the reference's stages of the same position: the terms
  agree as written once the launches' outputs are known to be the reference's products and layer outputs.
  The bias rows differ in spelling only: a vector reshaped to a row against the same vector broadcast to a row.
-/
import proofs.«107432_j87471303950923_1_alg».proof.Proof.Carry
import proofs.«107432_j87471303950923_1_alg».proof.Proof.Launch0
import proofs.«107432_j87471303950923_1_alg».proof.Proof.Launch1
import proofs.«107432_j87471303950923_1_alg».proof.Proof.Launch2
import proofs.«107432_j87471303950923_1_alg».proof.Proof.Launch3
import proofs.«107432_j87471303950923_1_alg».proof.Proof.Launch4
import proofs.«107432_j87471303950923_1_alg».proof.Proof.RefStages

set_option maxRecDepth 16384

noncomputable section

namespace Cert.Bridge

open Cert.KernelIdeal Cert.KernelIdeal.Gen Idealize.ShloMosaic Idealize.ShloMosaic.TcCoe Idealize.SL.Sem Cert.Layer
open Cert.ReferenceIdeal.Read (val_main_v3 val_main_v6 val_main_v16 val_main_v18 val_main_v21 val_main_v23 val_main_v25
  val_main_v26 val_main_v59 val_main_v60 val_main_v63 val_main_v65 val_main_v67 val_main_v68 val_main_v101 val_main_v102
  val_main_v105)

variable (m : (ℓ : Loc nD τ sig) → Buf (Elt Ideal) ℓ) (ρ : Dev nD → PrngReg) (c : Dev nD)

/-! ## The arguments as launched -/

abbrev X0 : (⟨S50000x128, .f32⟩ : BufTy).Contents (Elt Ideal) := m ((c : Thread nD τ).loc main_arg0)
abbrev X1 : (⟨S2x800000, .i32⟩ : BufTy).Contents (Elt Ideal) := m ((c : Thread nD τ).loc main_arg1)
abbrev X2 : (⟨S128x128, .f32⟩ : BufTy).Contents (Elt Ideal) := m ((c : Thread nD τ).loc main_arg2)
abbrev X3 : (⟨S128, .f32⟩ : BufTy).Contents (Elt Ideal) := m ((c : Thread nD τ).loc main_arg3)
abbrev X4 : (⟨S2x128x128, .f32⟩ : BufTy).Contents (Elt Ideal) := m ((c : Thread nD τ).loc main_arg4)
abbrev X5 : (⟨S2x128, .f32⟩ : BufTy).Contents (Elt Ideal) := m ((c : Thread nD τ).loc main_arg5)

/-! ## The first stretch: edge lists, degrees, the input bias as a row -/

/-- The source list with the self loops appended. -/
theorem W1_v3 : W1 m ρ c (Proc.devRef .tc main_v3) = val_main_v3 (F := Ideal) (X1 m c) := by
  show StableHlo.after (hostOps0 (F := Ideal)) (W0 m ρ c) (Proc.devRef .tc main_v3) = _
  after_results
  rfl

/-- The destination list with the self loops appended. -/
theorem W1_v6 : W1 m ρ c (Proc.devRef .tc main_v6) = val_main_v6 (F := Ideal) (X1 m c) := by
  show StableHlo.after (hostOps0 (F := Ideal)) (W0 m ρ c) (Proc.devRef .tc main_v6) = _
  after_results
  rfl

/-- The inverse square roots of the in-degrees. -/
theorem W1_v16 : W1 m ρ c (Proc.devRef .tc main_v16) = val_main_v16 (F := Ideal) (X1 m c) := by
  show StableHlo.after (hostOps0 (F := Ideal)) (W0 m ρ c) (Proc.devRef .tc main_v16) = _
  after_results_simp
  rfl

/-- The input layer's bias vector reshaped to a row. -/
theorem W1_v17 : W1 m ρ c (Proc.devRef .tc main_v17) = shapeCast S1x128 (X3 m c) shapeCasts_S128_S1x128 := by
  show StableHlo.after (hostOps0 (F := Ideal)) (W0 m ρ c) (Proc.devRef .tc main_v17) = _
  after_results
  rfl

/-! ## The input layer -/

/-- After the first launch its output array is the reference's input layer. -/
theorem layer0 : W2 m ρ c (Proc.devRef .tc main_v18) = val_main_v21 (F := Ideal) (X0 m c) (X2 m c) (X3 m c) := by
  refine ((W2_arr m ρ c 3).trans (Cert.KernelIdeal.Launch0.final (V1 m ρ) c)).trans ?_
  rw [Cert.ReferenceIdeal.Stages.v21_eq]
  show biasRelu (prod (W1 m ρ c (Proc.devRef .tc main_arg0)) (W1 m ρ c (Proc.devRef .tc main_arg2))) (W1 m ρ c (Proc.devRef .tc main_v17)) = _
  rw [Carry.W1_main_arg0, Carry.W1_main_arg2, W1_v17]
  exact congrArg (biasRelu _) (row_of_vec _ _ _)

/-! ## The first layer -/

/-- The first weight matrix, sliced out of the stack and reshaped. -/
theorem W3_v20 : W3 m ρ c (Proc.devRef .tc main_v20) = val_main_v23 (F := Ideal) (X4 m c) := by
  show StableHlo.after (hostOps1 (F := Ideal)) (W2 m ρ c) (Proc.devRef .tc main_v20) = _
  after_results
  rw [Carry.W2_main_arg4, Carry.W1_main_arg4]
  rfl

/-- After the second launch its output array is the reference's first product. -/
theorem prod1 : W4 m ρ c (Proc.devRef .tc main_v21) = val_main_v26 (F := Ideal) (X0 m c) (X2 m c) (X3 m c) (X4 m c) := by
  refine ((W4_arr m ρ c 2).trans (Cert.KernelIdeal.Launch1.final (V3 m ρ) c)).trans ?_
  rw [Cert.ReferenceIdeal.Stages.v26_eq]
  show prod (W3 m ρ c (Proc.devRef .tc main_v18)) (W3 m ρ c (Proc.devRef .tc main_v20)) = _
  rw [Carry.W3_main_v18, layer0, W3_v20]

/-- The first aggregation: the same host operations on the same edge lists, degrees and product. -/
theorem agg1 : W5 m ρ c (Proc.devRef .tc main_v54) = val_main_v59 (F := Ideal) (X0 m c) (X1 m c) (X2 m c) (X3 m c) (X4 m c) := by
  show StableHlo.after (hostOps2 (F := Ideal)) (W4 m ρ c) (Proc.devRef .tc main_v54) = _
  after_results_simp
  rw [prod1, Carry.W4_main_v3, Carry.W4_main_v6, Carry.W4_main_v16, W1_v3, W1_v6, W1_v16]
  rfl

/-- The first layer's bias vector, sliced out, as a row. -/
theorem W5_v57 : W5 m ρ c (Proc.devRef .tc main_v57)
    = shapeCast S1x128 (val_main_v25 (F := Ideal) (X5 m c)) shapeCasts_S128_S1x128 := by
  show StableHlo.after (hostOps2 (F := Ideal)) (W4 m ρ c) (Proc.devRef .tc main_v57) = _
  after_results
  rw [Carry.W4_main_arg5, Carry.W1_main_arg5]
  rfl

/-- After the third launch its output array is the reference's first layer output. -/
theorem layer1 : W6 m ρ c (Proc.devRef .tc main_v58) = val_main_v63 (F := Ideal) (X0 m c) (X1 m c) (X2 m c) (X3 m c) (X4 m c) (X5 m c) := by
  refine ((W6_arr m ρ c 2).trans (Cert.KernelIdeal.Launch2.final (V5 m ρ) c)).trans ?_
  rw [Cert.ReferenceIdeal.Stages.v63_eq]
  show biasRelu (W5 m ρ c (Proc.devRef .tc main_v54)) (W5 m ρ c (Proc.devRef .tc main_v57)) = _
  rw [agg1, W5_v57]
  exact congrArg (biasRelu _) (row_of_vec _ _ _)

/-! ## The second layer -/

/-- The second weight matrix, sliced out of the stack and reshaped. -/
theorem W7_v60 : W7 m ρ c (Proc.devRef .tc main_v60) = val_main_v65 (F := Ideal) (X4 m c) := by
  show StableHlo.after (hostOps3 (F := Ideal)) (W6 m ρ c) (Proc.devRef .tc main_v60) = _
  after_results
  rw [Carry.W6_main_arg4, Carry.W1_main_arg4]
  rfl

/-- After the fourth launch its output array is the reference's second product. -/
theorem prod2 : W8 m ρ c (Proc.devRef .tc main_v61) = val_main_v68 (F := Ideal) (X0 m c) (X1 m c) (X2 m c) (X3 m c) (X4 m c) (X5 m c) := by
  refine ((W8_arr m ρ c 2).trans (Cert.KernelIdeal.Launch3.final (V7 m ρ) c)).trans ?_
  rw [Cert.ReferenceIdeal.Stages.v68_eq]
  show prod (W7 m ρ c (Proc.devRef .tc main_v58)) (W7 m ρ c (Proc.devRef .tc main_v60)) = _
  rw [Carry.W7_main_v58, layer1, W7_v60]

/-- The second aggregation. -/
theorem agg2 : W9 m ρ c (Proc.devRef .tc main_v94) = val_main_v101 (F := Ideal) (X0 m c) (X1 m c) (X2 m c) (X3 m c) (X4 m c) (X5 m c) := by
  show StableHlo.after (hostOps4 (F := Ideal)) (W8 m ρ c) (Proc.devRef .tc main_v94) = _
  after_results_simp
  rw [prod2, Carry.W8_main_v3, Carry.W8_main_v6, Carry.W8_main_v16, Carry.W4_main_v3, Carry.W4_main_v6, Carry.W4_main_v16,
    W1_v3, W1_v6, W1_v16]
  rfl

/-- The second layer's bias vector, sliced out, as a row. -/
theorem W9_v97 : W9 m ρ c (Proc.devRef .tc main_v97)
    = shapeCast S1x128 (val_main_v67 (F := Ideal) (X5 m c)) shapeCasts_S128_S1x128 := by
  show StableHlo.after (hostOps4 (F := Ideal)) (W8 m ρ c) (Proc.devRef .tc main_v97) = _
  after_results
  rw [Carry.W8_main_arg5, Carry.W4_main_arg5, Carry.W1_main_arg5]
  rfl

/-- After the fifth launch the result array is the reference's result. -/
theorem result : W10 m ρ c (Proc.devRef .tc main_v98) = val_main_v105 (F := Ideal) (X0 m c) (X1 m c) (X2 m c) (X3 m c) (X4 m c) (X5 m c) := by
  refine ((W10_arr m ρ c 2).trans (Cert.KernelIdeal.Launch4.final (V9 m ρ) c)).trans ?_
  rw [Cert.ReferenceIdeal.Stages.v105_eq]
  show biasRelu (W9 m ρ c (Proc.devRef .tc main_v94)) (W9 m ρ c (Proc.devRef .tc main_v97)) = _
  rw [agg2, W9_v97]
  exact congrArg (biasRelu _) (row_of_vec _ _ _)

end Cert.Bridge

end
-- ==== Proof.lean ====
/-
  A two-layer graph convolution over 50000 nodes and 128 features: a tiled kernel program against a host reference.

  Both programs append a self loop to every node of the edge list, count the in-degrees `d`, and compute
      h₀ = max (x · W_in + b_in, 0),     h_{l+1} = max (A (h_l · W_l) + b_l, 0)   for l = 0, 1,
  where `A` gathers each edge's source row, scales it by `d_src^(-1/2) · d_dst^(-1/2)` and adds it into the edge's
  destination row. The reference does every step on the host. The kernel program does the three kinds of dense step —
  product with bias and positive part, product, bias and positive part — in five launches, each over five blocks of
  10000 rows, and everything else (edge lists, degrees, the aggregation `A`) by the same host operations as the
  reference. On the extended reals the launches' blocks assemble to the whole-array functions `Layer.prod` and
  `Layer.biasRelu` (the rounding of a product's operands to a narrower format is the identity there), which are what the
  host's dot product, broadcast sum and maximum compute; so every segment boundary of the kernel program holds the
  reference's stage of the same position, and the results are equal, element by element. No step uses that an input is
  finite: only the definitions of the sums and of the maximum enter, and the order of a sum is never changed.

  The three frames are the programs' runs with the results dropped; the idealization rewrote no operation.
-/
import proofs.«107432_j87471303950923_1_alg».proof.Defs
import proofs.«107432_j87471303950923_1_alg».proof.Proof.Gen.Kernel
import proofs.«107432_j87471303950923_1_alg».proof.Proof.Gen.Kernel.Skeleton
import proofs.«107432_j87471303950923_1_alg».proof.Proof.Gen.Kernel.Launch
import proofs.«107432_j87471303950923_1_alg».proof.Proof.Gen.Kernel.Points
import proofs.«107432_j87471303950923_1_alg».proof.Proof.Gen.Kernel.Frame
import proofs.«107432_j87471303950923_1_alg».proof.Proof.Gen.KernelIdeal
import proofs.«107432_j87471303950923_1_alg».proof.Proof.Gen.KernelIdeal.Skeleton
import proofs.«107432_j87471303950923_1_alg».proof.Proof.Gen.KernelIdeal.Launch
import proofs.«107432_j87471303950923_1_alg».proof.Proof.Gen.KernelIdeal.Points
import proofs.«107432_j87471303950923_1_alg».proof.Proof.Gen.KernelIdeal.Frame
import proofs.«107432_j87471303950923_1_alg».proof.Proof.Gen.ReferenceIdeal
import proofs.«107432_j87471303950923_1_alg».proof.Proof.Gen.ReferenceIdeal.Run
import proofs.«107432_j87471303950923_1_alg».proof.Proof.Gen.ReferenceIdeal.Read
import proofs.«107432_j87471303950923_1_alg».proof.Proof.Gen.Pre_finite_inputs
import proofs.«107432_j87471303950923_1_alg».proof.Proof.KernelRun
import proofs.«107432_j87471303950923_1_alg».proof.Proof.Stages
import Idealize.ShloMosaic.Adequacy
import Idealize.ShloMosaic.Init

noncomputable section

namespace Cert.Proof

open Idealize.ShloMosaic Idealize.SL.Sem

/-- The kernel program as printed runs, and its arguments end unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs, and its arguments end unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, and its arguments end unchanged: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the six arguments both idealized programs run to the same result array: the kernel
    program's final contents of its result buffer are the reference's last stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.finalContents m ρ c, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v105_eq, (hagree c).1, (hagree c).2.1, (hagree c).2.2.1, (hagree c).2.2.2.1,
    (hagree c).2.2.2.2.1, (hagree c).2.2.2.2.2]
  exact (Cert.Bridge.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
